-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16384x128 .f32) (main_arg1 : FVec F S128x128 .f32) (main_arg2 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16384x128 : Shape := ⟨2, ![16384, 128]⟩
abbrev S128x128 : Shape := ⟨2, ![128, 128]⟩
abbrev S128 : Shape := ⟨1, ![128]⟩
abbrev S128x1 : Shape := ⟨2, ![128, 1]⟩
abbrev S8192x128 : Shape := ⟨2, ![8192, 128]⟩
abbrev S128x8192 : Shape := ⟨2, ![128, 8192]⟩
abbrev S8x8192 : Shape := ⟨2, ![8, 8192]⟩
abbrev S4x8192 : Shape := ⟨2, ![4, 8192]⟩
abbrev S2x8192 : Shape := ⟨2, ![2, 8192]⟩
abbrev S1x8192 : Shape := ⟨2, ![1, 8192]⟩

abbrev nBuf : Space → Nat
  | .hbm => 5
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S16384x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x1, .f32⟩
  | .local _ .vmem, ⟨4, _⟩ => ⟨S8192x128, .f32⟩
  | .local _ .vmem, ⟨5, _⟩ => ⟨S8192x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S128x1 : S128.ShapeCasts S128x1
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  transposes_S8192x128_p1_0_S128x8192 : S8192x128.Transposes [1, 0] S128x8192
  slices_S128x8192_o0_0_S8x8192 : S128x8192.Slices ![0, 0] S8x8192
  slices_S128x8192_o8_0_S8x8192 : S128x8192.Slices ![8, 0] S8x8192
  slices_S128x8192_o16_0_S8x8192 : S128x8192.Slices ![16, 0] S8x8192
  slices_S128x8192_o24_0_S8x8192 : S128x8192.Slices ![24, 0] S8x8192
  slices_S128x8192_o32_0_S8x8192 : S128x8192.Slices ![32, 0] S8x8192
  slices_S128x8192_o40_0_S8x8192 : S128x8192.Slices ![40, 0] S8x8192
  slices_S128x8192_o48_0_S8x8192 : S128x8192.Slices ![48, 0] S8x8192
  slices_S128x8192_o56_0_S8x8192 : S128x8192.Slices ![56, 0] S8x8192
  slices_S8x8192_o0_0_S4x8192 : S8x8192.Slices ![0, 0] S4x8192
  slices_S8x8192_o4_0_S4x8192 : S8x8192.Slices ![4, 0] S4x8192
  slices_S4x8192_o0_0_S2x8192 : S4x8192.Slices ![0, 0] S2x8192
  slices_S4x8192_o2_0_S2x8192 : S4x8192.Slices ![2, 0] S2x8192
  slices_S2x8192_o0_0_S1x8192 : S2x8192.Slices ![0, 0] S1x8192
  slices_S2x8192_o1_0_S1x8192 : S2x8192.Slices ![1, 0] S1x8192
  slices_S128x8192_o64_0_S8x8192 : S128x8192.Slices ![64, 0] S8x8192
  slices_S128x8192_o72_0_S8x8192 : S128x8192.Slices ![72, 0] S8x8192
  slices_S128x8192_o80_0_S8x8192 : S128x8192.Slices ![80, 0] S8x8192
  slices_S128x8192_o88_0_S8x8192 : S128x8192.Slices ![88, 0] S8x8192
  slices_S128x8192_o96_0_S8x8192 : S128x8192.Slices ![96, 0] S8x8192
  slices_S128x8192_o104_0_S8x8192 : S128x8192.Slices ![104, 0] S8x8192
  slices_S128x8192_o112_0_S8x8192 : S128x8192.Slices ![112, 0] S8x8192
  slices_S128x8192_o120_0_S8x8192 : S128x8192.Slices ![120, 0] S8x8192
  broadcasts_S1x8192_S128x8192 : S1x8192.Broadcasts S128x8192
  transposes_S128x8192_p1_0_S8192x128 : S128x8192.Transposes [1, 0] S8192x128
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S16384x128.size a
  hwx0_0 : ∀ i : grid0.Coords, EltTy.bits .f32 = 32 ∨ (Rect.block (s := S16384x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S16384x128.size a
  hwx0_3 : ∀ i : grid0.Coords, EltTy.bits .f32 = 32 ∨ (Rect.block (s := S16384x128) S8192x128.size (cc0_transform_3 i) (hinb0_3 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S16384x128, .f32⟩
  | .hbm, ⟨5, _⟩ => ⟨S1x128, .f32⟩
  | .hbm, ⟨6, _⟩ => ⟨S16384x128, .f32⟩
  | .hbm, ⟨7, _⟩ => ⟨S16384x128, .f32⟩
  | .hbm, ⟨8, _⟩ => ⟨S_, .f32⟩
  | .hbm, ⟨9, _⟩ => ⟨S16384x128, .f32⟩
  | .hbm, ⟨10, _⟩ => ⟨S16384x128, .i1⟩
  | .hbm, ⟨11, _⟩ => ⟨S_, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x128, .f32⟩
  | .hbm, ⟨19, _⟩ => ⟨S16384x128, .f32⟩
  | .hbm, ⟨20, _⟩ => ⟨S_, .f32⟩
  | .hbm, ⟨21, _⟩ => ⟨S_, .f32⟩
  | .hbm, ⟨22, _⟩ => ⟨S16384x128, .f32⟩
  | .hbm, ⟨23, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  dot_S16384x128_S128x128_S16384x128_1_0_0_1_n_n_wf : DotDims.WF S16384x128 S128x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Spec.lean ====
/-
  The masked, normalised linear layer, one row at a time, on the extended reals.

  For one row `x` of 128 entries, a 128 × 128 weight `A` and a bias `b`:
    * the prediction for output `d` is `pred x A b d = ∑ k, A (d, k) · x k + b d`;
    * an output is KEPT where the row's own entry `x d` is not zero; elsewhere it counts as zero:
      `kept x A b d`;
    * the row's result at `d` is the prediction divided by the sum of the row's kept predictions where `x d ≠ 0`,
      and zero elsewhere: `rowOut x A b d`.
  `G X A b` applies this to every row of a 16384 × 128 array. Nothing here depends on how the 128 kept predictions
  of a row are added up.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word of the float zero, read on the extended reals. -/
abbrev z : EReal := Ideal.ofBits .f32 0x00000000#32

/-- The prediction for output `d` from the row `x`: `∑ k, A (d, k) · x k + b d`. -/
def pred (x : Fin 128 → EReal) (A : (⟨2, ![128, 128]⟩ : Shape).Idx → EReal) (b : Fin 128 → EReal) (d : Fin 128) : EReal :=
  (∑ k : Fin 128, A (ix2 d k) * x k) + b d

/-- The prediction where the row's entry `x d` is not zero, zero elsewhere. -/
def kept (x : Fin 128 → EReal) (A : (⟨2, ![128, 128]⟩ : Shape).Idx → EReal) (b : Fin 128 → EReal) (d : Fin 128) : EReal :=
  Scalar.select (Ideal.cmp .une (x d) z) (pred x A b d) z

/-- The row's result at `d`: the prediction over the sum of the row's kept predictions where `x d ≠ 0`, zero elsewhere. -/
def rowOut (x : Fin 128 → EReal) (A : (⟨2, ![128, 128]⟩ : Shape).Idx → EReal) (b : Fin 128 → EReal) (d : Fin 128) : EReal :=
  Scalar.select (Ideal.cmp .une (x d) z) (Ideal.div (pred x A b d) (∑ e : Fin 128, kept x A b e)) z

/-- Every row of `X` normalised: entry `(r, d)` is `rowOut` of row `r` at `d`. -/
def G (X : (⟨2, ![16384, 128]⟩ : Shape).Idx → EReal) (A : (⟨2, ![128, 128]⟩ : Shape).Idx → EReal)
    (b : (⟨1, ![128]⟩ : Shape).Idx → EReal) : (⟨2, ![16384, 128]⟩ : Shape).Idx → EReal :=
  fun i => rowOut (fun k => X (ix2 (i 0) k)) A (fun d => b (ix1 d)) (i 1)

end Cert.Spec

end
-- ==== Proof.RefIsSpec.lean ====
/-
  The reference computes `Spec.G`.

  Read one operation at a time at entry `(r, d)`: `X @ A.T` is `∑ k, X (r, k) · A (d, k)` (the transpose only renames the
  weight's index), the bias row is repeated down the rows, the mask compares `X (r, d)` with zero, the masked sum runs over
  the 128 entries of row `r` from the initial value zero, and is repeated along the row before the division. The two
  factors of each product are swapped against `Spec.pred`; multiplication of extended reals is commutative.
-/
import proofs.«141300_g53919019433997_cont_9to1c4b_248_12_alg».proof.Proof.Gen.ReferenceIdeal.Read
import proofs.«141300_g53919019433997_cont_9to1c4b_248_12_alg».proof.Proof.Spec

noncomputable section

open scoped BigOperators

namespace Cert.RefIsSpec

open Idealize.ShloMosaic Idealize.ShloMosaic.ValueIdx Cert.ReferenceIdeal Cert.ReferenceIdeal.Read

theorem ref_eq (x0 : (⟨S16384x128, .f32⟩ : BufTy).Contents (Elt Ideal)) (x1 : (⟨S128x128, .f32⟩ : BufTy).Contents (Elt Ideal))
    (x2 : (⟨S128, .f32⟩ : BufTy).Contents (Elt Ideal)) :
    val_main_v12 (F := Ideal) x0 x1 x2 = Cert.Spec.G x0 x1 x2 := by
  funext i
  obtain ⟨r, d, rfl⟩ : ∃ (r : Fin 16384) (d : Fin 128), i = ix2 r d := ⟨i 0, i 1, eq_ix2 i⟩
  have eL : ∀ (r : Fin 16384) (d k : Fin 128), lidx_main_v1 (ix2 r d) k = ix2 r k := fun r d k =>
    funext fun a => Fin.ext (by match a with | ⟨0, _⟩ => rfl | ⟨1, _⟩ => rfl)
  have eR : ∀ (r : Fin 16384) (d k : Fin 128), idx_main_v0 (ridx_main_v1 (ix2 r d) k) = ix2 d k := fun r d k =>
    funext fun a => Fin.ext (by match a with | ⟨0, _⟩ => rfl | ⟨1, _⟩ => rfl)
  have eB : ∀ (r : Fin 16384) (d : Fin 128), idx_main_v2 (idx_main_v3 (ix2 r d)) = ix1 d := fun r d =>
    funext fun a => Fin.ext (by match a with | ⟨0, _⟩ => rfl)
  have eS : ∀ (r : Fin 16384) (d k : Fin 128), idx_main_v8 (idx_main_v9 (idx_main_v10 (ix2 r d))) k = ix2 r k := fun r d k =>
    funext fun a => Fin.ext (by match a with | ⟨0, _⟩ => rfl | ⟨1, _⟩ => rfl)
  simp only [val_main_v12_apply, val_main_v6_apply, val_main_v11_apply, val_main_v10_apply, val_main_v9_apply,
    val_main_v8_apply, val_main_v7_apply, val_main_v4_apply, val_main_v1_apply, val_main_v0_apply, val_main_v3_apply,
    val_main_v2_apply, val_main_v5_apply, val_main_cst_apply, val_main_cst_1_apply, val_main_call0_v1_apply,
    val_main_call0_v0_apply, val_main_cst_0_apply, val_main_call1_v1_apply, val_main_call1_v0_apply, val_main_cst_2_apply,
    eL, eR, eB, eS]
  have hdot : ∀ (r : Fin 16384) (e : Fin 128),
      (∑ k : Fin 128, x0 (ix2 r k) * x1 (ix2 e k)) = ∑ k : Fin 128, x1 (ix2 e k) * x0 (ix2 r k) :=
    fun r e => Finset.sum_congr rfl fun k _ => mul_comm _ _
  show _ = Cert.Spec.rowOut (fun k => x0 (ix2 r k)) x1 (fun e => x2 (ix1 e)) d
  unfold Cert.Spec.rowOut Cert.Spec.kept Cert.Spec.pred
  simp only [hdot, Ideal.ofBits_def, Ideal.ofBits_zero_f32, zero_add, Ideal.addf_def, Ideal.hostDivf_def]
  rfl

end Cert.RefIsSpec

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«141300_g53919019433997_cont_9to1c4b_248_12_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.TreeSum.lean ====
/-
  A fixed association of a 128-term sum.

  The terms `g 0, …, g 127` of a commutative monoid are added in two halves of 64. Each half is read as eight
  consecutive groups of eight; the groups are added term by term, in order, into eight running totals
  (`lane g lo j` is the total of the terms `lo + j, lo + 8 + j, …, lo + 56 + j`), and the eight totals are then
  folded by halves: `(t₀ + t₄) + (t₂ + t₆)` plus `(t₁ + t₅) + (t₃ + t₇)`. Addition being associative and
  commutative, each half is the plain sum of its 64 terms, and the two halves together the sum of all 128.
-/
import Mathlib.Algebra.BigOperators.Fin
import Mathlib.Tactic.Abel

open scoped BigOperators

namespace Cert.TreeSum

variable {M : Type*} [AddCommMonoid M]

/-- The running total of the eight terms `lo + j, lo + 8 + j, …, lo + 56 + j`, added in that order. -/
def lane (g : ℕ → M) (lo j : ℕ) : M :=
  g (lo + j) + g (lo + 8 + j) + g (lo + 16 + j) + g (lo + 24 + j) + g (lo + 32 + j) + g (lo + 40 + j)
    + g (lo + 48 + j) + g (lo + 56 + j)

/-- The eight running totals of a half, folded by halves. -/
def half (g : ℕ → M) (lo : ℕ) : M :=
  ((lane g lo 0 + lane g lo 4) + (lane g lo 2 + lane g lo 6)) + ((lane g lo 1 + lane g lo 5) + (lane g lo 3 + lane g lo 7))

/-- A half is the sum of its 64 terms. -/
theorem half_eq (g : ℕ → M) (lo : ℕ) : half g lo = ∑ i ∈ Finset.range 64, g (lo + i) := by
  simp only [half, lane, Finset.sum_range_succ, Finset.sum_range_zero, zero_add, Nat.add_assoc, Nat.reduceAdd, Nat.add_zero]
  abel

/-- The two halves together are the sum of all 128 terms. -/
theorem halves_eq (g : ℕ → M) : half g 0 + half g 64 = ∑ i ∈ Finset.range 128, g i := by
  rw [half_eq, half_eq, show (128 : ℕ) = 64 + 64 from rfl, Finset.sum_range_add]
  simp only [Nat.zero_add]

/-- The same over the 128 indices as a finite type: `g` need only be given below 128. -/
theorem halves_eq_fin (g : ℕ → M) : half g 0 + half g 64 = ∑ d : Fin 128, g d.val := by
  rw [halves_eq, Fin.sum_univ_eq_sum_range]

end Cert.TreeSum
-- ==== Proof.BodyRows.lean ====
/-
  One entry of the block the body stores, at the ideal values.

  The body holds a block of 8192 rows `x0`, the weight `x1` and the bias as a column `x2`, and works on the TRANSPOSED
  layout: entry `(d, r)` of its intermediate arrays belongs to output `d` of row `r`.
    * `A · x0ᵀ + bias` at `(d, r)` is `Spec.pred` of row `r` at `d`: the product into zero contracts both operands on their
      last axis, the bias column is repeated along the lanes;
    * the mask at `(d, r)` compares `x0 (r, d)` with zero (the block transposed);
    * the masked predictions of row `r` are added over `d` in a fixed association: rows `0 … 63` and rows `64 … 127`
      separately, each as eight 8-row slices added in order and the eight running totals folded by halves
      (`TreeSum.half`); a row slice read at `(j, r)` is the operand at `(o + j, r)`. Addition of extended reals is
      associative and commutative, so the total is the plain sum over `d` (`TreeSum.halves_eq_fin`);
    * the total, a `1 × 8192` row, is repeated down the 128 outputs, divides the prediction, the mask selects, and the
      result is transposed back: entry `(r, d)` of the stored block is `Spec.rowOut` of row `r` at `d`.
-/
import proofs.«141300_g53919019433997_cont_9to1c4b_248_12_alg».proof.Proof.Gen.KernelIdeal.Skeleton
import proofs.«141300_g53919019433997_cont_9to1c4b_248_12_alg».proof.Proof.LibBlockOps
import proofs.«141300_g53919019433997_cont_9to1c4b_248_12_alg».proof.Proof.TreeSum
import proofs.«141300_g53919019433997_cont_9to1c4b_248_12_alg».proof.Proof.Spec
import Idealize.ShloMosaic.Lib.ValueLayout

noncomputable section

open scoped BigOperators

namespace Cert.Body

open Idealize.ShloMosaic Idealize.ShloMosaic.ValueIdx Cert.KernelIdeal Cert.KernelIdeal.Gen

/-- A column repeated along the lanes: an `[a, 1]` array broadcast to `[a, b]` reads, at `(p, c)`, the column at `p`. -/
theorem colRepeat_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

variable (x0 : Vec Ideal S8192x128 .f32) (x1 : Vec Ideal S128x128 .f32) (x2 : Vec Ideal S128x1 .f32)

/-- Row `r` of the block. -/
abbrev xrow (r : Fin 8192) : Fin 128 → EReal := fun k => x0 (ix2 r k)
/-- The bias column as a function of the output. -/
abbrev bcol : Fin 128 → EReal := fun e => x2 (ix2 e (0 : Fin 1))

/-- `A · x0ᵀ + bias` at `(d, r)` is the prediction for output `d` from row `r`. -/
theorem pay2_apply (d : Fin 128) (r : Fin 8192) :
    k0_pay2 (F := Ideal) x0 x1 x2 (ix2 d r) = Cert.Spec.pred (xrow x0 r) x1 (bcol x2) d := by
  unfold k0_pay2 Cert.Spec.pred
  show (FloatOps.matmul (F := Ideal) dot_S128x128_S8192x128_S128x8192_1_1_0_0_n_n none (x1 : FVec Ideal S128x128 .f32) (x0 : FVec Ideal S8192x128 .f32) (constant S128x8192 .f32 0x00000000#32)) (ix2 d r)
      + broadcastTo S128x8192 (shapeCast S128x1 (x2 : FVec Ideal S128x1 .f32) Facts₀.shapeCasts_S128x1_S128x1) Facts₀.broadcasts_S128x1_S128x8192 (ix2 d r) = _
  rw [shapeCast_self]
  congr 1
  · exact Cert.Lib.BlockOps.matmul_rows_apply Facts₀.dot_S128x128_S8192x128_S128x8192_1_1_0_0_n_n_wf none x1 x0 d r
  · exact colRepeat_apply x2 Facts₀.broadcasts_S128x1_S128x8192 d r

/-- The mask at `(d, r)`: is entry `(r, d)` of the block different from zero. -/
theorem pay3_apply (d : Fin 128) (r : Fin 8192) :
    k0_pay3 (F := Ideal) x0 (ix2 d r) = Ideal.cmp .une (xrow x0 r d) Cert.Spec.z := by
  unfold k0_pay3
  show FloatOps.cmpf (F := Ideal) .one (transpose S128x8192 [1, 0] (x0 : FVec Ideal S8192x128 .f32) Facts₀.transposes_S8192x128_p1_0_S128x8192 (ix2 d r)) _ = _
  rw [transpose_ix2_apply]
  rfl

/-- The masked prediction at `(d, r)`. -/
theorem pay4_apply (d : Fin 128) (r : Fin 8192) :
    k0_pay4 (F := Ideal) x0 x1 x2 (ix2 d r) = Cert.Spec.kept (xrow x0 r) x1 (bcol x2) d := by
  unfold k0_pay4 Cert.Spec.kept
  show Scalar.select (k0_pay3 (F := Ideal) x0 (ix2 d r)) (k0_pay2 (F := Ideal) x0 x1 x2 (ix2 d r)) _ = _
  rw [pay3_apply, pay2_apply]
  rfl

/-! ## The masked sum over the 128 outputs of a row -/

/-- Row number `n` (below 128) of a 128-row array. -/
def rowOf (n : ℕ) : Fin 128 := ⟨n % 128, Nat.mod_lt _ (by decide)⟩

/-- Lane `r` of a 128-row array, by row number. -/
def laneOf (mv : FVec Ideal S128x8192 .f32) (r : Fin 8192) : ℕ → EReal := fun n => mv (ix2 (rowOf n) r)

theorem laneOf_mk (mv : FVec Ideal S128x8192 .f32) (r : Fin 8192) (n : ℕ) (h : n < 128) :
    mv (ix2 ⟨n, h⟩ r) = laneOf mv r n :=
  congrArg (fun k => mv (ix2 k r)) (Fin.ext (Nat.mod_eq_of_lt h).symm)

/-- The first half: rows `0 … 63` of the masked predictions, in the body's association, at lane `r`. -/
theorem pay5_apply (r : Fin 8192) :
    k0_pay5 (F := Ideal) x0 x1 x2 (ix2 (0 : Fin 1) r) = Cert.TreeSum.half (laneOf (k0_pay4 (F := Ideal) x0 x1 x2) r) 0 := by
  unfold k0_pay5
  generalize k0_pay4 (F := Ideal) x0 x1 x2 = mv
  simp only [addf_apply, slice2_axis0_eq, laneOf_mk]
  simp only [Cert.TreeSum.half, Cert.TreeSum.lane, Fin.val_zero, Fin.isValue, Nat.add_zero, Nat.zero_add, Nat.reduceAdd]

/-- A running total of the second half: rows `64 + j, 72 + j, …, 120 + j` of the masked predictions, added in order
    (seven slices in one value, the eighth added after), at lane `r`. -/
theorem hiLane_apply (j : Fin 8) (r : Fin 8192) :
    k0_pay6 (F := Ideal) x0 x1 x2 (ix2 j r) + k0_pay7 (F := Ideal) x0 x1 x2 (ix2 j r)
      = Cert.TreeSum.lane (laneOf (k0_pay4 (F := Ideal) x0 x1 x2) r) 64 j.val := by
  unfold k0_pay6 k0_pay7
  generalize k0_pay4 (F := Ideal) x0 x1 x2 = mv
  simp only [addf_apply, slice2_axis0_eq, laneOf_mk]
  simp only [Cert.TreeSum.lane, Nat.reduceAdd]

/-- Eight values folded by halves. -/
def fold8 (p : Fin 8 → EReal) : EReal := ((p 0 + p 4) + (p 2 + p 6)) + ((p 1 + p 5) + (p 3 + p 7))

/-- The stored value at `(r, d)`, over the five values it is computed from: the mask selects the prediction divided by
    the first half's total plus the second half's eight running totals folded by halves. -/
theorem pay1_apply (v6 : FVec Ideal S128x8192 .f32) (v9 : IVec S128x8192 1) (v35 : FVec Ideal S1x8192 .f32)
    (v48 v49 : FVec Ideal S8x8192 .f32) (r : Fin 8192) (d : Fin 128) :
    k0_pay1 (F := Ideal) v6 v9 v35 v48 v49 (ix2 r d)
      = Scalar.select (v9 (ix2 d r)) (Ideal.div (v6 (ix2 d r))
          (v35 (ix2 (0 : Fin 1) r) + fold8 fun j => v48 (ix2 j r) + v49 (ix2 j r))) Cert.Spec.z := by
  unfold k0_pay1
  rw [transpose_ix2_apply, select_apply, divf_apply, broadcastTo_1b_ab_apply]
  simp only [addf_apply, slice2_axis0_eq, broadcast_apply]
  rfl

/-- ENTRY `(r, d)` OF THE STORED BLOCK is the row function of row `r` of the block, at output `d`. -/
theorem payload_apply (r : Fin 8192) (d : Fin 128) :
    k0_pay1 (F := Ideal) (k0_pay2 x0 x1 x2) (k0_pay3 x0) (k0_pay5 x0 x1 x2) (k0_pay6 x0 x1 x2) (k0_pay7 x0 x1 x2) (ix2 r d)
      = Cert.Spec.rowOut (xrow x0 r) x1 (bcol x2) d := by
  rw [pay1_apply, pay3_apply, pay2_apply, pay5_apply]
  have hhi : (fold8 fun j => k0_pay6 (F := Ideal) x0 x1 x2 (ix2 j r) + k0_pay7 (F := Ideal) x0 x1 x2 (ix2 j r))
      = Cert.TreeSum.half (laneOf (k0_pay4 (F := Ideal) x0 x1 x2) r) 64 := by
    unfold fold8 Cert.TreeSum.half
    simp only [hiLane_apply]
    rfl
  have hsum : (∑ e : Fin 128, laneOf (k0_pay4 (F := Ideal) x0 x1 x2) r e.val)
      = ∑ e : Fin 128, Cert.Spec.kept (xrow x0 r) x1 (bcol x2) e :=
    Finset.sum_congr rfl fun e _ => by
      unfold laneOf
      rw [show rowOf e.val = e from Fin.ext (Nat.mod_eq_of_lt e.isLt), pay4_apply]
  rw [hhi, Cert.TreeSum.halves_eq_fin, hsum]
  rfl

end Cert.Body

end
-- ==== Proof.KernelValue.lean ====
/-
  The kernel's result array is `Spec.G` of its arguments.

  The grid has two points; point `t` holds rows `8192 t … 8192 t + 8191` of `X` (all 128 columns), the whole weight, and
  the whole bias column — the bias reshaped to `128 × 1` before the call, so its entry `(e, 0)` is `b e` — and writes
  back rows `8192 t … 8192 t + 8191` of the result. By `Body.payload_apply` entry `(r, d)` of what it writes is
  `Spec.rowOut` of row `r` of its block, which is row `8192 t + r` of `X`: block `t` of `Spec.G`. The two blocks tile the
  result (row `R` lies in block `R / 8192`), so the array ends holding `Spec.G`.
-/
import proofs.«141300_g53919019433997_cont_9to1c4b_248_12_alg».proof.Proof.Gen.KernelIdeal.Frame
import proofs.«141300_g53919019433997_cont_9to1c4b_248_12_alg».proof.Proof.BodyRows
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps over the two grid points: the row block of `X` and of the result is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 2 :=
  (by decide +kernel : ∀ t : Fin grid0.N, _)

/-- The bias column the region finds is the bias reshaped. -/
theorem V_bias (c : Dev nD) (e : Fin 128) :
    (V m c main_v0 : S128x1.Idx → EReal) (ix2 e (0 : Fin 1)) = (m ((c : Thread nD τ).loc main_arg2) : S128.Idx → EReal) (ix1 e) := by
  have h : (V m c main_v0 : S128x1.Idx → EReal) = shapeCast S128x1 (m ((c : Thread nD τ).loc main_arg2) : S128.Idx → EReal) Facts₀.shapeCasts_S128_S128x1 := by
    dsimp only [Gen.V, Gen.hostOps0]; after_results; rfl
  rw [h]
  refine shapeCast_apply _ _ (ix2 e (0 : Fin 1)) (ix1 e) ?_
  rw [Shape.rowMajor_val_one, Shape.rowMajor_val_two]
  show e.val = e.val * 1 + 0
  omega

/-! ## The blocks a point holds -/

/-- Entry `(r, k)` of the block of `X` at point `t` is entry `(8192 t + r, k)` of `X`. -/
theorem blockX_apply (c : Dev nD) (t : Fin cfg0.N) (r : Fin 8192) (k : Fin 128) (R : Fin 16384) (hR : R.val = t.val * 8192 + r.val) :
    (iblk m c 0 t : Vec Ideal S8192x128 .f32) (ix2 r k)
      = (m ((c : Thread nD τ).loc main_arg0) : S16384x128.Idx → EReal) (ix2 R k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 8192 + 1 * r.val = R.val; rw [e0, hR]; omega
  | ⟨1, _⟩ => show win0_0.index t (1 : Fin 2) * 128 + 1 * k.val = k.val; rw [e1]; omega

/-- The block of the weight at any point is the weight. -/
theorem blockA_apply (c : Dev nD) (t : Fin cfg0.N) (e k : Fin 128) :
    (iblk m c 1 t : Vec Ideal S128x128 .f32) (ix2 e k)
      = (m ((c : Thread nD τ).loc main_arg1) : S128x128.Idx → EReal) (ix2 e k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 128 + 1 * e.val = e.val; rw [e0]; omega
  | ⟨1, _⟩ => show win0_1.index t (1 : Fin 2) * 128 + 1 * k.val = k.val; rw [e1]; omega

/-- The block of the bias column at any point is the bias: entry `(e, 0)` is `b e`. -/
theorem blockB_apply (c : Dev nD) (t : Fin cfg0.N) (e : Fin 128) :
    (iblk m c 2 t : Vec Ideal S128x1 .f32) (ix2 e (0 : Fin 1))
      = (m ((c : Thread nD τ).loc main_arg2) : S128.Idx → EReal) (ix1 e) := by
  obtain ⟨-, -, -, -, e0, e1, -⟩ := idx_facts t
  unfold iblk
  rw [View.read_apply]
  show V m c main_v0 _ = _
  refine Eq.trans ?_ (V_bias m c e)
  congr 1
  funext a
  apply Fin.ext
  match a with
  | ⟨0, _⟩ => show win0_2.index t (0 : Fin 2) * 128 + 1 * e.val = e.val; rw [e0]; omega
  | ⟨1, _⟩ => show win0_2.index t (1 : Fin 2) * 1 + 1 * 0 = 0; rw [e1]

/-! ## What a point writes back, and the array after the run -/

/-- Entry `(r, d)` of the result's block at point `t` lies at `(8192 t + r, d)` of the result. -/
theorem embOut_apply (t : Fin cfg0.N) (r : Fin 8192) (d : Fin 128) (R : Fin 16384) (hR : R.val = t.val * 8192 + r.val) :
    ((cfg0.win 3).blk t).view.emb (ix2 r d : S8192x128.Idx) = (ix2 R d : S16384x128.Idx) := by
  obtain ⟨-, -, -, -, -, -, e0, e1, -⟩ := idx_facts t
  funext a
  apply Fin.ext
  match a with
  | ⟨0, _⟩ => show win0_3.index t (0 : Fin 2) * 8192 + 1 * r.val = R.val; rw [e0, hR]; omega
  | ⟨1, _⟩ => show win0_3.index t (1 : Fin 2) * 128 + 1 * d.val = d.val; rw [e1]; omega

/-- WHAT POINT `t` WRITES BACK is block `t` of `Spec.G` of the argument arrays. -/
theorem flushed_eq (c : Dev nD) (t : Fin cfg0.N) :
    (dats m 0 c).flushed 3 t = ((cfg0.win 3).blk t).view.read (Elt Ideal)
      (Cert.Spec.G (m ((c : Thread nD τ).loc main_arg0)) (m ((c : Thread nD τ).loc main_arg1)) (m ((c : Thread nD τ).loc main_arg2))) := by
  have ht : t.val < 2 := (idx_facts t).2.2.2.2.2.2.2.2
  show (cfg0.win 3).cut (grid0.coords t) ((dats m 0 c).after 3 t) = _
  rw [after0_3]
  unfold out0_3
  rw [View.canon_unit_zero hz]
  simp only [View.ld_unit_zero (S := S8192x128) hz, View.ld_unit_zero (S := S128x128) hz, View.ld_unit_zero (S := S128x1) hz]
  funext j
  obtain ⟨r, d, rfl⟩ : ∃ (r : Fin 8192) (d : Fin 128), j = (ix2 r d : S8192x128.Idx) := ⟨j 0, j 1, eq_ix2 j⟩
  have hr := r.isLt
  show k0_pay1 (F := Ideal) (k0_pay2 (iblk m c 0 t) (iblk m c 1 t) (iblk m c 2 t)) (k0_pay3 (iblk m c 0 t))
        (k0_pay5 (iblk m c 0 t) (iblk m c 1 t) (iblk m c 2 t)) (k0_pay6 (iblk m c 0 t) (iblk m c 1 t) (iblk m c 2 t))
        (k0_pay7 (iblk m c 0 t) (iblk m c 1 t) (iblk m c 2 t)) (ix2 r d)
      = Cert.Spec.G _ _ _ (((cfg0.win 3).blk t).view.emb (ix2 r d : S8192x128.Idx))
  rw [embOut_apply t r d ⟨t.val * 8192 + r.val, by omega⟩ rfl]
  refine (Cert.Body.payload_apply (iblk m c 0 t) (iblk m c 1 t) (iblk m c 2 t) r d).trans ?_
  have h0 : Cert.Body.xrow (iblk m c 0 t) r
      = fun k => ((m ((c : Thread nD τ).loc main_arg0)) : S16384x128.Idx → EReal) (ix2 (⟨t.val * 8192 + r.val, by omega⟩ : Fin 16384) k) :=
    funext fun k => blockX_apply m c t r k _ rfl
  have h1 : (iblk m c 1 t : Vec Ideal S128x128 .f32) = (m ((c : Thread nD τ).loc main_arg1)) := funext fun i => by
    obtain ⟨e, k, rfl⟩ : ∃ (e k : Fin 128), i = (ix2 e k : S128x128.Idx) := ⟨i 0, i 1, eq_ix2 i⟩
    exact blockA_apply m c t e k
  have h2 : Cert.Body.bcol (iblk m c 2 t) = fun e => ((m ((c : Thread nD τ).loc main_arg2)) : S128.Idx → EReal) (ix1 e) :=
    funext fun e => blockB_apply m c t e
  rw [h0, h1, h2]
  rfl

/-- An index of the result is in point `t`'s block iff each coordinate is in the block's range on its axis. -/
theorem mem_blk (t : Fin cfg0.N) (i : S16384x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v1).slice (win0_3.rect t)).set ↔ _
  rw [View.set_slice_whole, Rect.mem_set_unit]
  exact Iff.rfl

/-- Each of the two row blocks is some point's. -/
theorem point_of : ∀ q : Fin 2, ∃ t : Fin cfg0.N, t.val = q.val :=
  (by decide +kernel : ∀ q : Fin 2, ∃ t : Fin grid0.N, t.val = q.val)

/-- The two blocks tile the result: row `R` is in the block of point `R / 8192`. -/
theorem cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, ht⟩ := point_of ⟨(i 0).val / 8192, by omega⟩
  have ht' : t.val = (i 0).val / 8192 := ht
  obtain ⟨-, -, -, -, -, -, e0, e1, -⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    rw [e0, ht']; omega
  | ⟨1, _⟩ =>
    show win0_3.index t (1 : Fin 2) * 128 ≤ (i 1).val ∧ (i 1).val < win0_3.index t (1 : Fin 2) * 128 + 128
    rw [e1]; omega

/-- THE RESULT ARRAY after the run is `Spec.G` of the argument arrays. -/
theorem final (c : Dev nD) : (dats m 0 c).arrAt 3 cfg0.N
    = Cert.Spec.G (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result array at `Spec.G` of the arguments, the arguments unchanged. -/
theorem run : θ_run defs (onTc (τ := τ) (main (F := Ideal))) ⟨m, fun _ => 0, ρ⟩ fun r => ∀ c : Dev nD,
      r.2.mem ((c : Thread nD τ).loc main_v1) = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelValue

end
-- ==== Proof.lean ====
/-
  The kernel and the reference compute, on the extended reals, the same function of `X` (16384 × 128), `A` (128 × 128) and
  `b` (128): with the prediction `y (r, d) = ∑ k, A (d, k) · X (r, k) + b d`, entry `(r, d)` of the result is
  `y (r, d)` divided by the sum over `e` of the predictions `y (r, e)` with `X (r, e) ≠ 0`, where `X (r, d) ≠ 0`, and zero
  elsewhere (`Spec.G`).
    * The reference writes the prediction as `X @ A.T + b`, the masked sum as one reduction along the row from zero
      (`RefIsSpec.ref_eq`); its products have their factors in the other order, and multiplication is commutative.
    * The kernel works block by block (two blocks of 8192 rows) on the transposed layout and adds the 128 masked
      predictions of a row in a fixed association, two halves of eight 8-row slices each folded by halves
      (`Body.payload_apply`, `TreeSum.halves_eq_fin`): addition of extended reals is associative and commutative, so
      the association does not matter. The two blocks tile the result (`KernelValue.final`).
  Neither step cancels, distributes or moves a factor across a sum, so no entry needs to be finite: the precondition is
  never opened. The ideal pass rewrote nothing, so the kernel's idealization is its own text read at the ideal values.
-/
import proofs.«141300_g53919019433997_cont_9to1c4b_248_12_alg».proof.Defs
import proofs.«141300_g53919019433997_cont_9to1c4b_248_12_alg».proof.Proof.Gen.Kernel
import proofs.«141300_g53919019433997_cont_9to1c4b_248_12_alg».proof.Proof.Gen.Kernel.Skeleton
import proofs.«141300_g53919019433997_cont_9to1c4b_248_12_alg».proof.Proof.Gen.Kernel.Launch
import proofs.«141300_g53919019433997_cont_9to1c4b_248_12_alg».proof.Proof.Gen.Kernel.Points
import proofs.«141300_g53919019433997_cont_9to1c4b_248_12_alg».proof.Proof.Gen.Kernel.Frame
import proofs.«141300_g53919019433997_cont_9to1c4b_248_12_alg».proof.Proof.Gen.KernelIdeal
import proofs.«141300_g53919019433997_cont_9to1c4b_248_12_alg».proof.Proof.Gen.KernelIdeal.Skeleton
import proofs.«141300_g53919019433997_cont_9to1c4b_248_12_alg».proof.Proof.Gen.KernelIdeal.Launch
import proofs.«141300_g53919019433997_cont_9to1c4b_248_12_alg».proof.Proof.Gen.KernelIdeal.Points
import proofs.«141300_g53919019433997_cont_9to1c4b_248_12_alg».proof.Proof.Gen.KernelIdeal.Frame
import proofs.«141300_g53919019433997_cont_9to1c4b_248_12_alg».proof.Proof.Gen.ReferenceIdeal
import proofs.«141300_g53919019433997_cont_9to1c4b_248_12_alg».proof.Proof.Gen.Pre_finite_inputs
import proofs.«141300_g53919019433997_cont_9to1c4b_248_12_alg».proof.Proof.Gen.ReferenceIdeal.Run
import proofs.«141300_g53919019433997_cont_9to1c4b_248_12_alg».proof.Proof.Gen.ReferenceIdeal.Read
import proofs.«141300_g53919019433997_cont_9to1c4b_248_12_alg».proof.Proof.RefIsSpec
import proofs.«141300_g53919019433997_cont_9to1c4b_248_12_alg».proof.Proof.KernelValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with `Spec.G` of the arguments in their result. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RefIsSpec.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
